-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel

variable [Facts]

def fn {F : FTy → Type} [FloatOps F] (main_arg0 : FVec F S32x256x64x64 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  main_v3
-- ==== Kernel.lean ====
abbrev S32x256x64x64 : Shape := ⟨4, ![32, 256, 64, 64]⟩
abbrev S32x64x4x64x64 : Shape := ⟨5, ![32, 64, 4, 64, 64]⟩
abbrev S32x64x128x128 : Shape := ⟨4, ![32, 64, 128, 128]⟩
abbrev S1x64x4x64x64 : Shape := ⟨5, ![1, 64, 4, 64, 64]⟩
abbrev S1x64x128x128 : Shape := ⟨4, ![1, 64, 128, 128]⟩
abbrev S1x64x1x64x64 : Shape := ⟨5, ![1, 64, 1, 64, 64]⟩
abbrev S64x64x64 : Shape := ⟨3, ![64, 64, 64]⟩
abbrev S64x64x64x1 : Shape := ⟨4, ![64, 64, 64, 1]⟩
abbrev S64x64x64x2 : Shape := ⟨4, ![64, 64, 64, 2]⟩
abbrev S64x64x128 : Shape := ⟨3, ![64, 64, 128]⟩
abbrev S64x64x1x128 : Shape := ⟨4, ![64, 64, 1, 128]⟩
abbrev S64x64x2x128 : Shape := ⟨4, ![64, 64, 2, 128]⟩
abbrev S64x128x128 : Shape := ⟨3, ![64, 128, 128]⟩

abbrev nBuf : Space → Nat
  | .hbm => 3
  | .vmem => 4
  | .smem => 0
  | _ => 0

abbrev bufTy : (tb : Table) → Fin (tcTables nBuf tb) → BufTy
  | .hbm, ⟨0, _⟩ => ⟨S32x256x64x64, .f32⟩
  | .hbm, ⟨1, _⟩ => ⟨S32x64x4x64x64, .f32⟩
  | .hbm, ⟨2, _⟩ => ⟨S32x64x128x128, .f32⟩
  | .local _ .vmem, ⟨0, _⟩ => ⟨S1x64x4x64x64, .f32⟩
  | .local _ .vmem, ⟨1, _⟩ => ⟨S1x64x4x64x64, .f32⟩
  | .local _ .vmem, ⟨2, _⟩ => ⟨S1x64x128x128, .f32⟩
  | .local _ .vmem, ⟨3, _⟩ => ⟨S1x64x128x128, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x4x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x256x64x64_S32x64x4x64x64 : S32x256x64x64.ShapeCasts S32x64x4x64x64
  inb_S1x64x4x64x64_S1x64x1x64x64_0_0_0_0_0 : ∀ a, (![0, 0, 0, 0, 0] : Fin 5 → Nat) a + S1x64x1x64x64.size a ≤ S1x64x4x64x64.size a
  h_S1x64x1x64x64 : 0 < S1x64x1x64x64.numel
  shapeCasts_S1x64x1x64x64_S64x64x64 : S1x64x1x64x64.ShapeCasts S64x64x64
  inb_S1x64x4x64x64_S1x64x1x64x64_0_0_1_0_0 : ∀ a, (![0, 0, 1, 0, 0] : Fin 5 → Nat) a + S1x64x1x64x64.size a ≤ S1x64x4x64x64.size a
  inb_S1x64x4x64x64_S1x64x1x64x64_0_0_2_0_0 : ∀ a, (![0, 0, 2, 0, 0] : Fin 5 → Nat) a + S1x64x1x64x64.size a ≤ S1x64x4x64x64.size a
  inb_S1x64x4x64x64_S1x64x1x64x64_0_0_3_0_0 : ∀ a, (![0, 0, 3, 0, 0] : Fin 5 → Nat) a + S1x64x1x64x64.size a ≤ S1x64x4x64x64.size a
  shapeCasts_S64x64x64_S64x64x64x1 : S64x64x64.ShapeCasts S64x64x64x1
  concatenates_S64x64x64x1_S64x64x64x1_S64x64x64x2_d3 : Shape.Concatenates [S64x64x64x1, S64x64x64x1] S64x64x64x2 3
  shapeCasts_S64x64x64x2_S64x64x128 : S64x64x64x2.ShapeCasts S64x64x128
  shapeCasts_S64x64x128_S64x64x1x128 : S64x64x128.ShapeCasts S64x64x1x128
  concatenates_S64x64x1x128_S64x64x1x128_S64x64x2x128_d2 : Shape.Concatenates [S64x64x1x128, S64x64x1x128] S64x64x2x128 2
  shapeCasts_S64x64x2x128_S64x128x128 : S64x64x2x128.ShapeCasts S64x128x128
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S1x64x128x128 : S64x128x128.ShapeCasts S1x64x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4x64x64.size a ≤ S32x64x4x64x64.size a
  hwx0_0 : ∀ i : grid0.Coords, EltTy.bits .f32 = 32 ∨ (Rect.block (s := S32x64x4x64x64) S1x64x4x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x128.size a ≤ S32x64x128x128.size a
  hwx0_1 : ∀ i : grid0.Coords, EltTy.bits .f32 = 32 ∨ (Rect.block (s := S32x64x128x128) S1x64x128x128.size (cc0_transform_1 i) (hinb0_1 i)).WholeWords (EltTy.packing .f32)

variable [Facts₀]

abbrev win0_0 : Pipeline.Window sig grid0 :=
  Pipeline.Window.ofSpec (Memref.whole main_v0) S1x64x4x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x64x4x64x64 : Shape := ⟨5, ![32, 64, 4, 64, 64]⟩
abbrev S32x64x1x64x64 : Shape := ⟨5, ![32, 64, 1, 64, 64]⟩
abbrev S32x64x64x64 : Shape := ⟨4, ![32, 64, 64, 64]⟩
abbrev S_ : Shape := ⟨0, ![]⟩
abbrev S32x64x64x64x1 : Shape := ⟨5, ![32, 64, 64, 64, 1]⟩
abbrev S32x64x64x64x2 : Shape := ⟨5, ![32, 64, 64, 64, 2]⟩
abbrev S32x64x64x128 : Shape := ⟨4, ![32, 64, 64, 128]⟩
abbrev S32x64x64x1x128 : Shape := ⟨5, ![32, 64, 64, 1, 128]⟩
abbrev S32x64x64x2x128 : Shape := ⟨5, ![32, 64, 64, 2, 128]⟩
abbrev S32x64x128x128 : Shape := ⟨4, ![32, 64, 128, 128]⟩

abbrev nBuf : Space → Nat
  | .hbm => 46
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x64x4x64x64, .f32⟩
  | .hbm, ⟨2, _⟩ => ⟨S32x64x1x64x64, .f32⟩
  | .hbm, ⟨3, _⟩ => ⟨S32x64x64x64, .f32⟩
  | .hbm, ⟨4, _⟩ => ⟨S32x64x1x64x64, .f32⟩
  | .hbm, ⟨5, _⟩ => ⟨S32x64x64x64, .f32⟩
  | .hbm, ⟨6, _⟩ => ⟨S32x64x1x64x64, .f32⟩
  | .hbm, ⟨7, _⟩ => ⟨S32x64x64x64, .f32⟩
  | .hbm, ⟨8, _⟩ => ⟨S32x64x1x64x64, .f32⟩
  | .hbm, ⟨9, _⟩ => ⟨S32x64x64x64, .f32⟩
  | .hbm, ⟨10, _⟩ => ⟨S32x64x64x64, .f32⟩
  | .hbm, ⟨11, _⟩ => ⟨S32x64x64x64, .f32⟩
  | .hbm, ⟨12, _⟩ => ⟨S32x64x64x64, .f32⟩
  | .hbm, ⟨13, _⟩ => ⟨S_, .f32⟩
  | .hbm, ⟨14, _⟩ => ⟨S32x64x64x64, .f32⟩
  | .hbm, ⟨15, _⟩ => ⟨S32x64x64x64, .f32⟩
  | .hbm, ⟨16, _⟩ => ⟨S32x64x64x64, .f32⟩
  | .hbm, ⟨17, _⟩ => ⟨S32x64x64x64, .f32⟩
  | .hbm, ⟨18, _⟩ => ⟨S32x64x64x64, .f32⟩
  | .hbm, ⟨19, _⟩ => ⟨S_, .f32⟩
  | .hbm, ⟨20, _⟩ => ⟨S32x64x64x64, .f32⟩
  | .hbm, ⟨21, _⟩ => ⟨S32x64x64x64, .f32⟩
  | .hbm, ⟨22, _⟩ => ⟨S32x64x64x64, .f32⟩
  | .hbm, ⟨23, _⟩ => ⟨S32x64x64x64, .f32⟩
  | .hbm, ⟨24, _⟩ => ⟨S32x64x64x64, .f32⟩
  | .hbm, ⟨25, _⟩ => ⟨S_, .f32⟩
  | .hbm, ⟨26, _⟩ => ⟨S32x64x64x64, .f32⟩
  | .hbm, ⟨27, _⟩ => ⟨S32x64x64x64, .f32⟩
  | .hbm, ⟨28, _⟩ => ⟨S32x64x64x64, .f32⟩
  | .hbm, ⟨29, _⟩ => ⟨S32x64x64x64, .f32⟩
  | .hbm, ⟨30, _⟩ => ⟨S32x64x64x64, .f32⟩
  | .hbm, ⟨31, _⟩ => ⟨S_, .f32⟩
  | .hbm, ⟨32, _⟩ => ⟨S32x64x64x64, .f32⟩
  | .hbm, ⟨33, _⟩ => ⟨S32x64x64x64, .f32⟩
  | .hbm, ⟨34, _⟩ => ⟨S32x64x64x64x1, .f32⟩
  | .hbm, ⟨35, _⟩ => ⟨S32x64x64x64x1, .f32⟩
  | .hbm, ⟨36, _⟩ => ⟨S32x64x64x64x2, .f32⟩
  | .hbm, ⟨37, _⟩ => ⟨S32x64x64x128, .f32⟩
  | .hbm, ⟨38, _⟩ => ⟨S32x64x64x64x1, .f32⟩
  | .hbm, ⟨39, _⟩ => ⟨S32x64x64x64x1, .f32⟩
  | .hbm, ⟨40, _⟩ => ⟨S32x64x64x64x2, .f32⟩
  | .hbm, ⟨41, _⟩ => ⟨S32x64x64x128, .f32⟩
  | .hbm, ⟨42, _⟩ => ⟨S32x64x64x1x128, .f32⟩
  | .hbm, ⟨43, _⟩ => ⟨S32x64x64x1x128, .f32⟩
  | .hbm, ⟨44, _⟩ => ⟨S32x64x64x2x128, .f32⟩
  | .hbm, ⟨45, _⟩ => ⟨S32x64x128x128, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]

class Facts₀ : Prop where
  shapeCasts_S32x256x64x64_S32x64x4x64x64 : S32x256x64x64.ShapeCasts S32x64x4x64x64
  slices_S32x64x4x64x64_S32x64x1x64x64_0_0_0_0_0 : S32x64x4x64x64.Slices ![0, 0, 0, 0, 0] S32x64x1x64x64
  shapeCasts_S32x64x1x64x64_S32x64x64x64 : S32x64x1x64x64.ShapeCasts S32x64x64x64
  slices_S32x64x4x64x64_S32x64x1x64x64_0_0_1_0_0 : S32x64x4x64x64.Slices ![0, 0, 1, 0, 0] S32x64x1x64x64
  slices_S32x64x4x64x64_S32x64x1x64x64_0_0_2_0_0 : S32x64x4x64x64.Slices ![0, 0, 2, 0, 0] S32x64x1x64x64
  slices_S32x64x4x64x64_S32x64x1x64x64_0_0_3_0_0 : S32x64x4x64x64.Slices ![0, 0, 3, 0, 0] S32x64x1x64x64
  bcast_S_S32x64x64x64 : S_.BroadcastsInDim S32x64x64x64 (![] : Fin 0 → Fin S32x64x64x64.rank)
  bcast_S32x64x64x64_S32x64x64x64x1_0_1_2_3 : S32x64x64x64.BroadcastsInDim S32x64x64x64x1 (![0, 1, 2, 3] : Fin 4 → Fin S32x64x64x64x1.rank)
  concatenates_S32x64x64x64x1_S32x64x64x64x1_S32x64x64x64x2_d4 : Shape.Concatenates [S32x64x64x64x1, S32x64x64x64x1] S32x64x64x64x2 4
  shapeCasts_S32x64x64x64x2_S32x64x64x128 : S32x64x64x64x2.ShapeCasts S32x64x64x128
  bcast_S32x64x64x128_S32x64x64x1x128_0_1_2_4 : S32x64x64x128.BroadcastsInDim S32x64x64x1x128 (![0, 1, 2, 4] : Fin 4 → Fin S32x64x64x1x128.rank)
  concatenates_S32x64x64x1x128_S32x64x64x1x128_S32x64x64x2x128_d3 : Shape.Concatenates [S32x64x64x1x128, S32x64x64x1x128] S32x64x64x2x128 3
  shapeCasts_S32x64x64x2x128_S32x64x128x128 : S32x64x64x2x128.ShapeCasts S32x64x128x128

variable [Facts₀]

class Facts : Prop extends Facts₀ where

variable [Facts]
-- ==== Proof.Synth.lean ====
/-
  The inverse 2x2 Haar step, index by index.

  A channel of the result is twice as tall and twice as wide as a subband. Pixel (r, s) of channel c sits in the
  2x2 cell (r / 2, s / 2); its place inside the cell, (r % 2, s % 2), chooses the signs with which the four
  subbands — approximation, horizontal, vertical and diagonal detail — enter, read at that cell:
      (0, 0):  ((a + h) + v) + d        (0, 1):  ((a + h) - v) - d
      (1, 0):  ((a - h) + v) - d        (1, 1):  ((a - h) - v) + d
  each then multiplied by one half. The sums are kept in this order and the half as the float word it is written
  with, so that the definition can be read at any float instance: nothing here is evaluated.
-/
import Idealize.ShloMosaic.PureOps
import Idealize.ShloMosaic.Lib.ValueIdx

noncomputable section

namespace Cert.Haar

open Idealize.ShloMosaic Idealize.ShloMosaic.ValueIdx

variable {F : FTy → Type} [FloatOps F]

/-- One pixel of the synthesis from the four subband values of its cell: `dr`, `ds` are the pixel's row and column
    inside the cell. -/
def quad (dr ds : Nat) (a h v d : F .f32) : F .f32 :=
  if dr = 0 then
    (if ds = 0 then FloatOps.mulf (FloatOps.addf (FloatOps.addf (FloatOps.addf a h) v) d) (FloatOps.ofBits .f32 0x3F000000#32)
     else FloatOps.mulf (FloatOps.subf (FloatOps.subf (FloatOps.addf a h) v) d) (FloatOps.ofBits .f32 0x3F000000#32))
  else
    (if ds = 0 then FloatOps.mulf (FloatOps.subf (FloatOps.addf (FloatOps.subf a h) v) d) (FloatOps.ofBits .f32 0x3F000000#32)
     else FloatOps.mulf (FloatOps.addf (FloatOps.subf (FloatOps.subf a h) v) d) (FloatOps.ofBits .f32 0x3F000000#32))

/-- The synthesis of `n` images of 64 channels: `y` holds, per image and channel, the four 64x64 subbands; the result
    holds, per image and channel, the 128x128 picture. -/
def synth (n : Nat) (y : (⟨5, ![n, 64, 4, 64, 64]⟩ : Shape).Idx → F .f32) : (⟨4, ![n, 64, 128, 128]⟩ : Shape).Idx → F .f32 :=
  fun j =>
    quad ((j 2).val % 2) ((j 3).val % 2)
      (y (ix5 (j 0) (j 1) (0 : Fin 4) ⟨(j 2).val / 2, by have h : (j 2).val < 128 := (j 2).isLt; omega⟩ ⟨(j 3).val / 2, by have h : (j 3).val < 128 := (j 3).isLt; omega⟩))
      (y (ix5 (j 0) (j 1) (1 : Fin 4) ⟨(j 2).val / 2, by have h : (j 2).val < 128 := (j 2).isLt; omega⟩ ⟨(j 3).val / 2, by have h : (j 3).val < 128 := (j 3).isLt; omega⟩))
      (y (ix5 (j 0) (j 1) (2 : Fin 4) ⟨(j 2).val / 2, by have h : (j 2).val < 128 := (j 2).isLt; omega⟩ ⟨(j 3).val / 2, by have h : (j 3).val < 128 := (j 3).isLt; omega⟩))
      (y (ix5 (j 0) (j 1) (3 : Fin 4) ⟨(j 2).val / 2, by have h : (j 2).val < 128 := (j 2).isLt; omega⟩ ⟨(j 3).val / 2, by have h : (j 3).val < 128 := (j 3).isLt; omega⟩))

/-- The synthesis at explicit coordinates. -/
theorem synth_apply (n : Nat) (y : (⟨5, ![n, 64, 4, 64, 64]⟩ : Shape).Idx → F .f32) (b : Fin n) (c : Fin 64) (r s : Fin 128) :
    synth n y (ix4 b c r s) =
      quad (r.val % 2) (s.val % 2)
        (y (ix5 b c (0 : Fin 4) ⟨r.val / 2, by omega⟩ ⟨s.val / 2, by omega⟩))
        (y (ix5 b c (1 : Fin 4) ⟨r.val / 2, by omega⟩ ⟨s.val / 2, by omega⟩))
        (y (ix5 b c (2 : Fin 4) ⟨r.val / 2, by omega⟩ ⟨s.val / 2, by omega⟩))
        (y (ix5 b c (3 : Fin 4) ⟨r.val / 2, by omega⟩ ⟨s.val / 2, by omega⟩)) := rfl

end Cert.Haar

end
-- ==== Proof.Interleave.lean ====
/-
  Interleaving two pictures, read at an index.

  Two arrays of one shape are given a new last axis of extent one, joined along it, and the pair axis is merged
  into the axis before it: entry s of the merged axis is entry s / 2 of the first array when s is even, of the
  second when s is odd (the row-major position of (j, k) in an axis pair of extents (W, 2) is 2 j + k). That is an
  interleave of columns; with the new axis placed before the last one and merged into the row axis it is an
  interleave of rows. Here for a stack of 64 pictures (rank three): the columns of two 64x64 pictures into a
  64x128 one, and the rows of two 64x128 pictures into a 128x128 one.
-/
import Idealize.ShloMosaic.PureOps
import Idealize.ShloMosaic.Lib.ValueIdx
import Idealize.ShloMosaic.Lib.Pipeline.Value

noncomputable section

namespace Cert.Haar

open Idealize.ShloMosaic Idealize.ShloMosaic.ValueIdx

variable {α : Type}

/-- Columns: column `s` of the merged picture is column `s / 2` of `a` for even `s`, of `b` for odd `s`. -/
theorem cols3 (a b : (⟨3, ![64, 64, 64]⟩ : Shape).Idx → α)
    (h1 : (⟨3, ![64, 64, 64]⟩ : Shape).ShapeCasts ⟨4, ![64, 64, 64, 1]⟩)
    (hc : Shape.Concatenates [(⟨4, ![64, 64, 64, 1]⟩ : Shape), ⟨4, ![64, 64, 64, 1]⟩] ⟨4, ![64, 64, 64, 2]⟩ 3)
    (h2 : (⟨4, ![64, 64, 64, 2]⟩ : Shape).ShapeCasts ⟨3, ![64, 64, 128]⟩)
    (c i : Fin 64) (s : Fin 128) :
    shapeCast ⟨3, ![64, 64, 128]⟩ (concatenate ⟨4, ![64, 64, 64, 2]⟩ 3
        [⟨⟨4, ![64, 64, 64, 1]⟩, shapeCast ⟨4, ![64, 64, 64, 1]⟩ a h1⟩, ⟨⟨4, ![64, 64, 64, 1]⟩, shapeCast ⟨4, ![64, 64, 64, 1]⟩ b h1⟩] hc) h2 (ix3 c i s)
      = if s.val % 2 = 0 then a (ix3 c i ⟨s.val / 2, by omega⟩) else b (ix3 c i ⟨s.val / 2, by omega⟩) := by
  have hs : s.val < 128 := s.isLt
  refine (shapeCast_apply _ h2 (ix3 c i s) (ix4 c i (⟨s.val / 2, by omega⟩ : Fin 64) (⟨s.val % 2, by omega⟩ : Fin 2)) ?_).trans ?_
  · rw [Shape.rowMajor_val_four, Shape.rowMajor_val_three]
    show ((c.val * 64 + i.val) * 64 + s.val / 2) * 2 + s.val % 2 = (c.val * 64 + i.val) * 128 + s.val
    omega
  by_cases h : s.val % 2 = 0
  · rw [if_pos h]
    refine (concatenate_pair_apply_left 3 _ _ hc _ rfl (ix4 c i (⟨s.val / 2, by omega⟩ : Fin 64) (0 : Fin 1)) ?_).trans ?_
    · intro b'
      match b' with
      | ⟨0, _⟩ => rfl
      | ⟨1, _⟩ => rfl
      | ⟨2, _⟩ => rfl
      | ⟨3, _⟩ => show 0 = s.val % 2; omega
    · refine shapeCast_apply a h1 _ (ix3 c i (⟨s.val / 2, by omega⟩ : Fin 64)) ?_
      rw [Shape.rowMajor_val_three, Shape.rowMajor_val_four]
      show (c.val * 64 + i.val) * 64 + s.val / 2 = ((c.val * 64 + i.val) * 64 + s.val / 2) * 1 + 0
      omega
  · rw [if_neg h]
    refine (concatenate_pair_apply_right 3 _ _ hc _ rfl rfl (ix4 c i (⟨s.val / 2, by omega⟩ : Fin 64) (0 : Fin 1)) ?_ ?_).trans ?_
    · intro b' hb'
      match b', hb' with
      | ⟨0, _⟩, _ => rfl
      | ⟨1, _⟩, _ => rfl
      | ⟨2, _⟩, _ => rfl
      | ⟨3, _⟩, hb' => exact absurd rfl hb'
    · show 0 + 1 = s.val % 2
      omega
    · refine shapeCast_apply b h1 _ (ix3 c i (⟨s.val / 2, by omega⟩ : Fin 64)) ?_
      rw [Shape.rowMajor_val_three, Shape.rowMajor_val_four]
      show (c.val * 64 + i.val) * 64 + s.val / 2 = ((c.val * 64 + i.val) * 64 + s.val / 2) * 1 + 0
      omega

/-- Rows: row `r` of the merged picture is row `r / 2` of `p` for even `r`, of `q` for odd `r`. -/
theorem rows3 (p q : (⟨3, ![64, 64, 128]⟩ : Shape).Idx → α)
    (h1 : (⟨3, ![64, 64, 128]⟩ : Shape).ShapeCasts ⟨4, ![64, 64, 1, 128]⟩)
    (hc : Shape.Concatenates [(⟨4, ![64, 64, 1, 128]⟩ : Shape), ⟨4, ![64, 64, 1, 128]⟩] ⟨4, ![64, 64, 2, 128]⟩ 2)
    (h2 : (⟨4, ![64, 64, 2, 128]⟩ : Shape).ShapeCasts ⟨3, ![64, 128, 128]⟩)
    (c : Fin 64) (r s : Fin 128) :
    shapeCast ⟨3, ![64, 128, 128]⟩ (concatenate ⟨4, ![64, 64, 2, 128]⟩ 2
        [⟨⟨4, ![64, 64, 1, 128]⟩, shapeCast ⟨4, ![64, 64, 1, 128]⟩ p h1⟩, ⟨⟨4, ![64, 64, 1, 128]⟩, shapeCast ⟨4, ![64, 64, 1, 128]⟩ q h1⟩] hc) h2 (ix3 c r s)
      = if r.val % 2 = 0 then p (ix3 c ⟨r.val / 2, by omega⟩ s) else q (ix3 c ⟨r.val / 2, by omega⟩ s) := by
  have hr : r.val < 128 := r.isLt
  have hs : s.val < 128 := s.isLt
  refine (shapeCast_apply _ h2 (ix3 c r s) (ix4 c (⟨r.val / 2, by omega⟩ : Fin 64) (⟨r.val % 2, by omega⟩ : Fin 2) s) ?_).trans ?_
  · rw [Shape.rowMajor_val_four, Shape.rowMajor_val_three]
    show ((c.val * 64 + r.val / 2) * 2 + r.val % 2) * 128 + s.val = (c.val * 128 + r.val) * 128 + s.val
    omega
  by_cases h : r.val % 2 = 0
  · rw [if_pos h]
    refine (concatenate_pair_apply_left 2 _ _ hc _ rfl (ix4 c (⟨r.val / 2, by omega⟩ : Fin 64) (0 : Fin 1) s) ?_).trans ?_
    · intro b'
      match b' with
      | ⟨0, _⟩ => rfl
      | ⟨1, _⟩ => rfl
      | ⟨2, _⟩ => show 0 = r.val % 2; omega
      | ⟨3, _⟩ => rfl
    · refine shapeCast_apply p h1 _ (ix3 c (⟨r.val / 2, by omega⟩ : Fin 64) s) ?_
      rw [Shape.rowMajor_val_three, Shape.rowMajor_val_four]
      show (c.val * 64 + r.val / 2) * 128 + s.val = ((c.val * 64 + r.val / 2) * 1 + 0) * 128 + s.val
      omega
  · rw [if_neg h]
    refine (concatenate_pair_apply_right 2 _ _ hc _ rfl rfl (ix4 c (⟨r.val / 2, by omega⟩ : Fin 64) (0 : Fin 1) s) ?_ ?_).trans ?_
    · intro b' hb'
      match b', hb' with
      | ⟨0, _⟩, _ => rfl
      | ⟨1, _⟩, _ => rfl
      | ⟨2, _⟩, hb' => exact absurd rfl hb'
      | ⟨3, _⟩, _ => rfl
    · show 0 + 1 = r.val % 2
      omega
    · refine shapeCast_apply q h1 _ (ix3 c (⟨r.val / 2, by omega⟩ : Fin 64) s) ?_
      rw [Shape.rowMajor_val_three, Shape.rowMajor_val_four]
      show (c.val * 64 + r.val / 2) * 128 + s.val = ((c.val * 64 + r.val / 2) * 1 + 0) * 128 + s.val
      omega

end Cert.Haar

end
-- ==== Proof.KernelBlock.lean ====
/-
  What the kernel's body leaves in its output buffer is the synthesis of its input block.

  The input block holds, for one image, the four 64x64 subbands of each of 64 channels. The body reads the four
  subbands (each a load at its offset on the subband axis, the two unit axes dropped), forms the four signed sums
  and halves them, interleaves the columns of the two pictures of even rows and of the two pictures of odd rows,
  then interleaves the rows of the two results, and stores the 128x128 pictures. Read at pixel (r, s) of channel c
  that is the pixel `Cert.Haar.quad` names, of the subbands at cell (r / 2, s / 2): `Cert.Haar.synth` for one image.
-/
import proofs.«137758_j188978561035_2_alg».proof.Proof.Gen.KernelIdeal.Frame
import proofs.«137758_j188978561035_2_alg».proof.Proof.Synth
import proofs.«137758_j188978561035_2_alg».proof.Proof.Interleave
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Haar

variable {F : FTy → Type} [FloatOps F]

theorem zero4 : (![0, 0, 0, 0] : Fin 4 → Nat) = fun _ => 0 := funext fun a => by fin_cases a <;> rfl

/-- Subband `k` of the block: the load at offset `k` on the subband axis, its unit axes dropped, at pixel (i, j) of
    channel c is the block at (0, c, k, i, j). -/
theorem subband (x0 : Vec F S1x64x4x64x64 .f32) (k : Nat) (hk : k < 4)
    (inb : ∀ a, (![0, 0, k, 0, 0] : Fin 5 → Nat) a + S1x64x1x64x64.size a ≤ S1x64x4x64x64.size a)
    (hsc : S1x64x1x64x64.ShapeCasts S64x64x64) (c i j : Fin 64) :
    shapeCast S64x64x64 (View.ld x0 (Rect.unit (s := S1x64x4x64x64) ![0, 0, k, 0, 0] S1x64x1x64x64.size inb)) hsc (ix3 c i j)
      = x0 (ix5 (0 : Fin 1) c (⟨k, hk⟩ : Fin 4) i j) := by
  refine (shapeCast_apply _ hsc (ix3 c i j) (ix5 (0 : Fin 1) c (0 : Fin 1) i j) ?_).trans ?_
  · rw [Shape.rowMajor_val_five, Shape.rowMajor_val_three]
    show (((0 * 64 + c.val) * 1 + 0) * 64 + i.val) * 64 + j.val = (c.val * 64 + i.val) * 64 + j.val
    omega
  show x0 ((Rect.unit (s := S1x64x4x64x64) ![0, 0, k, 0, 0] S1x64x1x64x64.size inb).emb (ix5 (0 : Fin 1) c (0 : Fin 1) i j)) = _
  refine congrArg x0 (funext fun a => Fin.ext ?_)
  match a with
  | ⟨0, _⟩ => show 0 + 1 * 0 = 0; omega
  | ⟨1, _⟩ => show 0 + 1 * c.val = c.val; omega
  | ⟨2, _⟩ => show k + 1 * 0 = k; omega
  | ⟨3, _⟩ => show 0 + 1 * i.val = i.val; omega
  | ⟨4, _⟩ => show 0 + 1 * j.val = j.val; omega

theorem sub0 (x0 : Vec F S1x64x4x64x64 .f32) (c i j : Fin 64) :
    k0_pay2 (View.ld x0 r0_0) (ix3 c i j) = x0 (ix5 (0 : Fin 1) c (0 : Fin 4) i j) := by
  unfold k0_pay2
  exact subband x0 0 (by omega) _ _ c i j

theorem sub1 (x0 : Vec F S1x64x4x64x64 .f32) (c i j : Fin 64) :
    k0_pay3 (View.ld x0 r0_1) (ix3 c i j) = x0 (ix5 (0 : Fin 1) c (1 : Fin 4) i j) := by
  unfold k0_pay3
  exact subband x0 1 (by omega) _ _ c i j

theorem sub2 (x0 : Vec F S1x64x4x64x64 .f32) (c i j : Fin 64) :
    k0_pay4 (View.ld x0 r0_2) (ix3 c i j) = x0 (ix5 (0 : Fin 1) c (2 : Fin 4) i j) := by
  unfold k0_pay4
  exact subband x0 2 (by omega) _ _ c i j

theorem sub3 (x0 : Vec F S1x64x4x64x64 .f32) (c i j : Fin 64) :
    k0_pay5 (View.ld x0 r0_3) (ix3 c i j) = x0 (ix5 (0 : Fin 1) c (3 : Fin 4) i j) := by
  unfold k0_pay5
  exact subband x0 3 (by omega) _ _ c i j

/-- The even rows: the columns of the two pictures `((a + h) + v) + d` and `((a + h) - v) - d`, halved, interleaved. -/
theorem even_rows (v0 v2 v4 v6 : Vec F S1x64x1x64x64 .f32) (c i : Fin 64) (s : Fin 128) :
    k0_pay6 v0 v2 v4 v6 (ix3 c i s)
      = if s.val % 2 = 0 then
          FloatOps.mulf (FloatOps.addf (FloatOps.addf (FloatOps.addf (k0_pay2 v0 (ix3 c i ⟨s.val / 2, by omega⟩)) (k0_pay3 v2 (ix3 c i ⟨s.val / 2, by omega⟩))) (k0_pay4 v4 (ix3 c i ⟨s.val / 2, by omega⟩))) (k0_pay5 v6 (ix3 c i ⟨s.val / 2, by omega⟩))) (FloatOps.ofBits .f32 0x3F000000#32)
        else
          FloatOps.mulf (FloatOps.subf (FloatOps.subf (FloatOps.addf (k0_pay2 v0 (ix3 c i ⟨s.val / 2, by omega⟩)) (k0_pay3 v2 (ix3 c i ⟨s.val / 2, by omega⟩))) (k0_pay4 v4 (ix3 c i ⟨s.val / 2, by omega⟩))) (k0_pay5 v6 (ix3 c i ⟨s.val / 2, by omega⟩))) (FloatOps.ofBits .f32 0x3F000000#32) := by
  unfold k0_pay6
  exact cols3 _ _ _ _ _ c i s

/-- The odd rows: the columns of `((a - h) + v) - d` and `((a - h) - v) + d`, halved, interleaved. -/
theorem odd_rows (v0 v2 v4 v6 : Vec F S1x64x1x64x64 .f32) (h : S64x64x64x2.ShapeCasts S64x64x128) (c i : Fin 64) (s : Fin 128) :
    shapeCast S64x64x128 (k0_pay7 v0 v2 v4 v6) h (ix3 c i s)
      = if s.val % 2 = 0 then
          FloatOps.mulf (FloatOps.subf (FloatOps.addf (FloatOps.subf (k0_pay2 v0 (ix3 c i ⟨s.val / 2, by omega⟩)) (k0_pay3 v2 (ix3 c i ⟨s.val / 2, by omega⟩))) (k0_pay4 v4 (ix3 c i ⟨s.val / 2, by omega⟩))) (k0_pay5 v6 (ix3 c i ⟨s.val / 2, by omega⟩))) (FloatOps.ofBits .f32 0x3F000000#32)
        else
          FloatOps.mulf (FloatOps.addf (FloatOps.subf (FloatOps.subf (k0_pay2 v0 (ix3 c i ⟨s.val / 2, by omega⟩)) (k0_pay3 v2 (ix3 c i ⟨s.val / 2, by omega⟩))) (k0_pay4 v4 (ix3 c i ⟨s.val / 2, by omega⟩))) (k0_pay5 v6 (ix3 c i ⟨s.val / 2, by omega⟩))) (FloatOps.ofBits .f32 0x3F000000#32) := by
  unfold k0_pay7
  exact cols3 _ _ _ _ _ c i s

/-- The stored block at pixel (r, s) of channel c. -/
theorem block_apply (x0 : Vec F S1x64x4x64x64 .f32) (c : Fin 64) (r s : Fin 128) :
    out0_1 x0 (ix4 (0 : Fin 1) c r s) = synth 1 x0 (ix4 (0 : Fin 1) c r s) := by
  have hr : r.val < 128 := r.isLt
  rw [synth_apply]
  unfold out0_1
  rw [View.canon_unit_zero zero4]
  unfold k0_pay1
  refine (shapeCast_apply _ _ (ix4 (0 : Fin 1) c r s) (ix3 c r s) ?_).trans ?_
  · rw [Shape.rowMajor_val_three, Shape.rowMajor_val_four]
    show (c.val * 128 + r.val) * 128 + s.val = ((0 * 64 + c.val) * 128 + r.val) * 128 + s.val
    omega
  refine (rows3 _ _ _ _ _ c r s).trans ?_
  rw [even_rows, odd_rows, sub0, sub1, sub2, sub3]
  rfl

/-- What the body leaves in the output buffer: the synthesis of the one image of its input block. -/
theorem block_eq (x0 : Vec F S1x64x4x64x64 .f32) : out0_1 x0 = synth 1 x0 := by
  funext j
  have e : j = ix4 (0 : Fin 1) (j 1) (j 2) (j 3) := by
    funext a
    match a with
    | ⟨0, _⟩ => exact Fin.ext (by have h : (j 0).val < 1 := (j 0).isLt; show (j 0).val = 0; omega)
    | ⟨1, _⟩ => rfl
    | ⟨2, _⟩ => rfl
    | ⟨3, _⟩ => rfl
  rw [e]
  exact block_apply x0 (j 1) (j 2) (j 3)

end Cert.KernelIdeal.Block

end
-- ==== Proof.KernelValue.lean ====
/-
  The kernel's result array is the synthesis of the reshaped argument.

  The region runs over the 32 images. At image t it stages block t of the reshaped argument — the four subbands of
  the 64 channels of that image — and writes back block t of the result — the 64 pictures of that image. What it
  writes back is the synthesis of the one image it staged (KernelBlock), and the synthesis of 32 images restricted
  to image t depends on image t of the argument only, so point t writes block t of the synthesis of the whole
  argument. The 32 blocks tile the result, so the result array ends holding that synthesis everywhere. The array
  the input window stages is what the one host operation before the region left: the argument reshaped.
-/
import proofs.«137758_j188978561035_2_alg».proof.Proof.Gen.KernelIdeal.Value
import proofs.«137758_j188978561035_2_alg».proof.Proof.KernelBlock
import Idealize.ShloMosaic.Lib.Pipeline.Value
import Idealize.ShloMosaic.Lib.StableHlo.Run
import Idealize.ShloMosaic.Lib.ValueIdx

noncomputable section

namespace Cert.KernelIdeal.Synthesis

open Cert.KernelIdeal Cert.KernelIdeal.Gen Idealize.ShloMosaic Idealize.ShloMosaic.TcCoe Idealize.SL.Sem
open Idealize.ShloMosaic.ValueIdx Cert.Haar
open Idealize.ShloMosaic.Pipeline (Dat)

variable {F : FTy → Type} [FloatOps F]
variable (m : (ℓ : Loc nD τ sig) → Buf (Elt F) ℓ) (ρ : Dev nD → PrngReg)

/-- Point `t` stages image `t` and writes image `t` back, whole on every other axis (decided over the 32 points). -/
theorem image_of_point : ∀ t : Fin cfg0.N,
    win0_0.index t (0 : Fin 5) = t.val ∧ win0_0.index t (1 : Fin 5) = 0 ∧ win0_0.index t (2 : Fin 5) = 0
      ∧ win0_0.index t (3 : Fin 5) = 0 ∧ win0_0.index t (4 : Fin 5) = 0
      ∧ win0_1.index t (0 : Fin 4) = t.val ∧ win0_1.index t (1 : Fin 4) = 0 ∧ win0_1.index t (2 : Fin 4) = 0
      ∧ win0_1.index t (3 : Fin 4) = 0 :=
  (by decide +kernel : ∀ t : Fin grid0.N, _)

theorem point_lt (t : Fin cfg0.N) : t.val < 32 := lt_of_lt_of_eq t.isLt N_0

/-- The array the input window stages: the argument with the subband axis split off the channel axis. -/
theorem staged (c : Dev nD) :
    (V m c main_v0 : S32x64x4x64x64.Idx → Elt F .f32)
      = shapeCast S32x64x4x64x64 (m ((c : Thread nD τ).loc main_arg0)) shapeCasts_S32x256x64x64_S32x64x4x64x64 := by
  dsimp only [Gen.V, Gen.hostOps0]; after_results; rfl

/-- The input block at point `t` is image `t` of the staged array. -/
theorem iblk_apply (c : Dev nD) (t : Fin cfg0.N) (c' : Fin 64) (k : Fin 4) (i j : Fin 64) :
    (iblk m c 0 t : Vec F S1x64x4x64x64 .f32) (ix5 (0 : Fin 1) c' k i j)
      = (V m c main_v0 : S32x64x4x64x64.Idx → Elt F .f32) (ix5 (⟨t.val, point_lt t⟩ : Fin 32) c' k i j) := by
  obtain ⟨e0, e1, e2, e3, e4, -⟩ := image_of_point t
  have hk : k.val < 4 := k.isLt
  unfold iblk
  rw [View.read_apply]
  show V m c main_v0 _ = V m c main_v0 _
  refine congrArg _ (funext fun a => Fin.ext ?_)
  match a with
  | ⟨0, _⟩ => show win0_0.index t (0 : Fin 5) * 1 + 1 * 0 = t.val; omega
  | ⟨1, _⟩ => show win0_0.index t (1 : Fin 5) * 64 + 1 * c'.val = c'.val; omega
  | ⟨2, _⟩ => show win0_0.index t (2 : Fin 5) * 4 + 1 * k.val = k.val; omega
  | ⟨3, _⟩ => show win0_0.index t (3 : Fin 5) * 64 + 1 * i.val = i.val; omega
  | ⟨4, _⟩ => show win0_0.index t (4 : Fin 5) * 64 + 1 * j.val = j.val; omega

/-- WHAT POINT `t` WRITES BACK is block `t` of the synthesis of the staged array. -/
theorem flushed_eq (c : Dev nD) (t : Fin cfg0.N) :
    (dats m 0 c).flushed 1 t
      = ((cfg0.win 1).blk t).view.read (Elt F) (synth 32 (V m c main_v0 : S32x64x4x64x64.Idx → Elt F .f32)) := by
  rw [Cert.KernelIdeal.Value.flushed1, Cert.KernelIdeal.Block.block_eq]
  obtain ⟨-, -, -, -, -, f0, f1, f2, f3⟩ := image_of_point t
  funext j
  have h0 : (j 0).val < 1 := (j 0).isLt
  have h1 : (j 1).val < 64 := (j 1).isLt
  have h2 : (j 2).val < 128 := (j 2).isLt
  have h3 : (j 3).val < 128 := (j 3).isLt
  rw [View.read_apply]
  have eL : (cfg0.win 1).xinj (grid0.coords t) j = ix4 (0 : Fin 1) (⟨(j 1).val, h1⟩ : Fin 64) (⟨(j 2).val, h2⟩ : Fin 128) (⟨(j 3).val, h3⟩ : Fin 128) := by
    funext a
    match a with
    | ⟨0, _⟩ => exact Fin.ext (by show (j 0).val = 0; omega)
    | ⟨1, _⟩ => rfl
    | ⟨2, _⟩ => rfl
    | ⟨3, _⟩ => rfl
  have eR : ((cfg0.win 1).blk t).view.emb j = ix4 (⟨t.val, point_lt t⟩ : Fin 32) (⟨(j 1).val, h1⟩ : Fin 64) (⟨(j 2).val, h2⟩ : Fin 128) (⟨(j 3).val, h3⟩ : Fin 128) := by
    funext a
    apply Fin.ext
    match a with
    | ⟨0, _⟩ => show win0_1.index t (0 : Fin 4) * 1 + 1 * (j 0).val = t.val; omega
    | ⟨1, _⟩ => show win0_1.index t (1 : Fin 4) * 64 + 1 * (j 1).val = (j 1).val; omega
    | ⟨2, _⟩ => show win0_1.index t (2 : Fin 4) * 128 + 1 * (j 2).val = (j 2).val; omega
    | ⟨3, _⟩ => show win0_1.index t (3 : Fin 4) * 128 + 1 * (j 3).val = (j 3).val; omega
  show synth 1 (iblk m c 0 t) ((cfg0.win 1).xinj (grid0.coords t) j) = _
  rw [eL, eR, synth_apply, synth_apply, iblk_apply m c t, iblk_apply m c t, iblk_apply m c t, iblk_apply m c t]
  first | rfl | exact (cast_eq _ _).symm

/-- An index of the result is in point `t`'s block iff each coordinate is in the block's range on its axis. -/
theorem mem_blk (t : Fin cfg0.N) (i : S32x64x128x128.Idx) :
    i ∈ ((cfg0.win 1).blk t).view.set ↔ ∀ a : Fin 4, win0_1.index t a * S1x64x128x128.size a ≤ (i a).val
      ∧ (i a).val < win0_1.index t a * S1x64x128x128.size a + S1x64x128x128.size a := by
  show i ∈ ((View.whole main_v1).slice (win0_1.rect t)).set ↔ _
  rw [View.set_slice_whole, Rect.mem_set_unit]
  exact Iff.rfl

/-- Every index of the result lies in the block of the point of its image. -/
theorem cover (i : S32x64x128x128.Idx) :
    ∃ t : Fin cfg0.N, (cfg0.win 1).flush t = true ∧ i ∈ ((cfg0.win 1).blk t).view.set := by
  have h0 : (i 0).val < 32 := (i 0).isLt
  have h1 : (i 1).val < 64 := (i 1).isLt
  have h2 : (i 2).val < 128 := (i 2).isLt
  have h3 : (i 3).val < 128 := (i 3).isLt
  obtain ⟨t, ht⟩ : ∃ t : Fin cfg0.N, t.val = (i 0).val := ⟨⟨(i 0).val, lt_of_lt_of_eq h0 N_0.symm⟩, rfl⟩
  obtain ⟨-, -, -, -, -, f0, f1, f2, f3⟩ := image_of_point t
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 64 ≤ (i 1).val ∧ (i 1).val < win0_1.index t (1 : Fin 4) * 64 + 64; omega
  | ⟨2, _⟩ => show win0_1.index t (2 : Fin 4) * 128 ≤ (i 2).val ∧ (i 2).val < win0_1.index t (2 : Fin 4) * 128 + 128; omega
  | ⟨3, _⟩ => show win0_1.index t (3 : Fin 4) * 128 ≤ (i 3).val ∧ (i 3).val < win0_1.index t (3 : Fin 4) * 128 + 128; omega

/-- THE RESULT ARRAY after the run: the synthesis of the staged array. -/
theorem final (c : Dev nD) :
    (dats m 0 c).arrAt 1 cfg0.N = synth 32 (V m c main_v0 : S32x64x4x64x64.Idx → Elt F .f32) :=
  (dats m 0 c).arrAt_eq_of_cover 1 (synth 32 (V m c main_v0 : S32x64x4x64x64.Idx → Elt F .f32))
    (fun t _ => flushed_eq m c t) cover

/-- The run, read: the result array at the synthesis of the reshaped argument, the argument unchanged. -/
theorem run : θ_run defs (onTc (τ := τ) (main (F := F))) ⟨m, fun _ => 0, ρ⟩ fun r => ∀ c : Dev nD,
      r.2.mem ((c : Thread nD τ).loc main_v1)
        = synth 32 (shapeCast S32x64x4x64x64 (m ((c : Thread nD τ).loc main_arg0)) shapeCasts_S32x256x64x64_S32x64x4x64x64)
      ∧ r.2.mem ((c : Thread nD τ).loc main_arg0) = m ((c : Thread nD τ).loc main_arg0) :=
  (θ_run defs _ _).mono (fun r h c => ⟨(h c).1.trans ((final m c).trans (by rw [staged m c])), (h c).2⟩)
    (Cert.KernelIdeal.Value.run_blocks m ρ)

end Cert.KernelIdeal.Synthesis

end
-- ==== Proof.InterleaveRef.lean ====
/-
  The same two interleaves, and a subband, for a batch of 32 stacks of 64 pictures (rank four), in the spelling
  a host program gives them: the new unit axis comes from a broadcast along the existing axes instead of a
  reshape, and a subband is a unit-width slice of the subband axis with that axis then dropped.
-/
import Idealize.ShloMosaic.PureOps
import Idealize.ShloMosaic.Lib.ValueIdx
import Idealize.ShloMosaic.Lib.Pipeline.Value

noncomputable section

namespace Cert.Haar

open Idealize.ShloMosaic Idealize.ShloMosaic.ValueIdx

variable {α : Type}

/-- Subband `k` of every channel of every image: the slice of width one at offset `k` on the subband axis, that axis
    dropped, at pixel (i, j) of channel c of image n is the array at (n, c, k, i, j). -/
theorem subband4 (y : (⟨5, ![32, 64, 4, 64, 64]⟩ : Shape).Idx → α) (k : Nat) (hk : k < 4)
    (hs : (⟨5, ![32, 64, 4, 64, 64]⟩ : Shape).Slices ![0, 0, k, 0, 0] ⟨5, ![32, 64, 1, 64, 64]⟩)
    (hc : (⟨5, ![32, 64, 1, 64, 64]⟩ : Shape).ShapeCasts ⟨4, ![32, 64, 64, 64]⟩)
    (n : Fin 32) (c i j : Fin 64) :
    shapeCast ⟨4, ![32, 64, 64, 64]⟩ (extractStridedSlice ⟨5, ![32, 64, 1, 64, 64]⟩ ![0, 0, k, 0, 0] y hs) hc (ix4 n c i j)
      = y (ix5 n c (⟨k, hk⟩ : Fin 4) i j) := by
  refine (shapeCast_apply _ hc (ix4 n c i j) (ix5 n c (0 : Fin 1) i j) ?_).trans ?_
  · rw [Shape.rowMajor_val_five, Shape.rowMajor_val_four]
    show (((n.val * 64 + c.val) * 1 + 0) * 64 + i.val) * 64 + j.val = ((n.val * 64 + c.val) * 64 + i.val) * 64 + j.val
    omega
  refine extractStridedSlice_apply _ y hs _ (ix5 n c (⟨k, hk⟩ : Fin 4) i j) fun a => ?_
  match a with
  | ⟨0, _⟩ => show n.val = 0 + n.val; omega
  | ⟨1, _⟩ => show c.val = 0 + c.val; omega
  | ⟨2, _⟩ => show k = k + 0; omega
  | ⟨3, _⟩ => show i.val = 0 + i.val; omega
  | ⟨4, _⟩ => show j.val = 0 + j.val; omega

/-- Columns: column `s` of the merged picture is column `s / 2` of `a` for even `s`, of `b` for odd `s`. -/
theorem cols4 (a b : (⟨4, ![32, 64, 64, 64]⟩ : Shape).Idx → α)
    (hb : (⟨4, ![32, 64, 64, 64]⟩ : Shape).BroadcastsInDim ⟨5, ![32, 64, 64, 64, 1]⟩ (![0, 1, 2, 3] : Fin 4 → Fin 5))
    (hc : Shape.Concatenates [(⟨5, ![32, 64, 64, 64, 1]⟩ : Shape), ⟨5, ![32, 64, 64, 64, 1]⟩] ⟨5, ![32, 64, 64, 64, 2]⟩ 4)
    (h2 : (⟨5, ![32, 64, 64, 64, 2]⟩ : Shape).ShapeCasts ⟨4, ![32, 64, 64, 128]⟩)
    (n : Fin 32) (c i : Fin 64) (s : Fin 128) :
    shapeCast ⟨4, ![32, 64, 64, 128]⟩ (concatenate ⟨5, ![32, 64, 64, 64, 2]⟩ 4
        [⟨⟨5, ![32, 64, 64, 64, 1]⟩, broadcastInDim ⟨5, ![32, 64, 64, 64, 1]⟩ (![0, 1, 2, 3] : Fin 4 → Fin 5) hb a⟩,
         ⟨⟨5, ![32, 64, 64, 64, 1]⟩, broadcastInDim ⟨5, ![32, 64, 64, 64, 1]⟩ (![0, 1, 2, 3] : Fin 4 → Fin 5) hb b⟩] hc) h2 (ix4 n c i s)
      = if s.val % 2 = 0 then a (ix4 n c i ⟨s.val / 2, by omega⟩) else b (ix4 n c i ⟨s.val / 2, by omega⟩) := by
  have hs : s.val < 128 := s.isLt
  refine (shapeCast_apply _ h2 (ix4 n c i s) (ix5 n c i (⟨s.val / 2, by omega⟩ : Fin 64) (⟨s.val % 2, by omega⟩ : Fin 2)) ?_).trans ?_
  · rw [Shape.rowMajor_val_five, Shape.rowMajor_val_four]
    show (((n.val * 64 + c.val) * 64 + i.val) * 64 + s.val / 2) * 2 + s.val % 2 = ((n.val * 64 + c.val) * 64 + i.val) * 128 + s.val
    omega
  have hbc : ∀ (x : (⟨4, ![32, 64, 64, 64]⟩ : Shape).Idx → α),
      broadcastInDim ⟨5, ![32, 64, 64, 64, 1]⟩ (![0, 1, 2, 3] : Fin 4 → Fin 5) hb x (ix5 n c i (⟨s.val / 2, by omega⟩ : Fin 64) (0 : Fin 1))
        = x (ix4 n c i (⟨s.val / 2, by omega⟩ : Fin 64)) := fun x =>
    broadcastInDim_apply _ hb x _ (ix4 n c i (⟨s.val / 2, by omega⟩ : Fin 64)) fun a => by
      match a with
      | ⟨0, _⟩ => show n.val = if (32 : Nat) = 1 then 0 else n.val; rw [if_neg (by decide)]
      | ⟨1, _⟩ => show c.val = if (64 : Nat) = 1 then 0 else c.val; rw [if_neg (by decide)]
      | ⟨2, _⟩ => show i.val = if (64 : Nat) = 1 then 0 else i.val; rw [if_neg (by decide)]
      | ⟨3, _⟩ => show s.val / 2 = if (64 : Nat) = 1 then 0 else s.val / 2; rw [if_neg (by decide)]
  by_cases h : s.val % 2 = 0
  · rw [if_pos h]
    refine (concatenate_pair_apply_left 4 _ _ hc _ rfl (ix5 n c i (⟨s.val / 2, by omega⟩ : Fin 64) (0 : Fin 1)) ?_).trans (hbc a)
    intro b'
    match b' with
    | ⟨0, _⟩ => rfl
    | ⟨1, _⟩ => rfl
    | ⟨2, _⟩ => rfl
    | ⟨3, _⟩ => rfl
    | ⟨4, _⟩ => show 0 = s.val % 2; omega
  · rw [if_neg h]
    refine (concatenate_pair_apply_right 4 _ _ hc _ rfl rfl (ix5 n c i (⟨s.val / 2, by omega⟩ : Fin 64) (0 : Fin 1)) ?_ ?_).trans (hbc b)
    · intro b' hb'
      match b', hb' with
      | ⟨0, _⟩, _ => rfl
      | ⟨1, _⟩, _ => rfl
      | ⟨2, _⟩, _ => rfl
      | ⟨3, _⟩, _ => rfl
      | ⟨4, _⟩, hb' => exact absurd rfl hb'
    · show 0 + 1 = s.val % 2
      omega

/-- Rows: row `r` of the merged picture is row `r / 2` of `p` for even `r`, of `q` for odd `r`. -/
theorem rows4 (p q : (⟨4, ![32, 64, 64, 128]⟩ : Shape).Idx → α)
    (hb : (⟨4, ![32, 64, 64, 128]⟩ : Shape).BroadcastsInDim ⟨5, ![32, 64, 64, 1, 128]⟩ (![0, 1, 2, 4] : Fin 4 → Fin 5))
    (hc : Shape.Concatenates [(⟨5, ![32, 64, 64, 1, 128]⟩ : Shape), ⟨5, ![32, 64, 64, 1, 128]⟩] ⟨5, ![32, 64, 64, 2, 128]⟩ 3)
    (h2 : (⟨5, ![32, 64, 64, 2, 128]⟩ : Shape).ShapeCasts ⟨4, ![32, 64, 128, 128]⟩)
    (n : Fin 32) (c : Fin 64) (r s : Fin 128) :
    shapeCast ⟨4, ![32, 64, 128, 128]⟩ (concatenate ⟨5, ![32, 64, 64, 2, 128]⟩ 3
        [⟨⟨5, ![32, 64, 64, 1, 128]⟩, broadcastInDim ⟨5, ![32, 64, 64, 1, 128]⟩ (![0, 1, 2, 4] : Fin 4 → Fin 5) hb p⟩,
         ⟨⟨5, ![32, 64, 64, 1, 128]⟩, broadcastInDim ⟨5, ![32, 64, 64, 1, 128]⟩ (![0, 1, 2, 4] : Fin 4 → Fin 5) hb q⟩] hc) h2 (ix4 n c r s)
      = if r.val % 2 = 0 then p (ix4 n c ⟨r.val / 2, by omega⟩ s) else q (ix4 n c ⟨r.val / 2, by omega⟩ s) := by
  have hr : r.val < 128 := r.isLt
  have hs : s.val < 128 := s.isLt
  refine (shapeCast_apply _ h2 (ix4 n c r s) (ix5 n c (⟨r.val / 2, by omega⟩ : Fin 64) (⟨r.val % 2, by omega⟩ : Fin 2) s) ?_).trans ?_
  · rw [Shape.rowMajor_val_five, Shape.rowMajor_val_four]
    show (((n.val * 64 + c.val) * 64 + r.val / 2) * 2 + r.val % 2) * 128 + s.val = ((n.val * 64 + c.val) * 128 + r.val) * 128 + s.val
    omega
  have hbc : ∀ (x : (⟨4, ![32, 64, 64, 128]⟩ : Shape).Idx → α),
      broadcastInDim ⟨5, ![32, 64, 64, 1, 128]⟩ (![0, 1, 2, 4] : Fin 4 → Fin 5) hb x (ix5 n c (⟨r.val / 2, by omega⟩ : Fin 64) (0 : Fin 1) s)
        = x (ix4 n c (⟨r.val / 2, by omega⟩ : Fin 64) s) := fun x =>
    broadcastInDim_apply _ hb x _ (ix4 n c (⟨r.val / 2, by omega⟩ : Fin 64) s) fun a => by
      match a with
      | ⟨0, _⟩ => show n.val = if (32 : Nat) = 1 then 0 else n.val; rw [if_neg (by decide)]
      | ⟨1, _⟩ => show c.val = if (64 : Nat) = 1 then 0 else c.val; rw [if_neg (by decide)]
      | ⟨2, _⟩ => show r.val / 2 = if (64 : Nat) = 1 then 0 else r.val / 2; rw [if_neg (by decide)]
      | ⟨3, _⟩ => show s.val = if (128 : Nat) = 1 then 0 else s.val; rw [if_neg (by decide)]
  by_cases h : r.val % 2 = 0
  · rw [if_pos h]
    refine (concatenate_pair_apply_left 3 _ _ hc _ rfl (ix5 n c (⟨r.val / 2, by omega⟩ : Fin 64) (0 : Fin 1) s) ?_).trans (hbc p)
    intro b'
    match b' with
    | ⟨0, _⟩ => rfl
    | ⟨1, _⟩ => rfl
    | ⟨2, _⟩ => rfl
    | ⟨3, _⟩ => show 0 = r.val % 2; omega
    | ⟨4, _⟩ => rfl
  · rw [if_neg h]
    refine (concatenate_pair_apply_right 3 _ _ hc _ rfl rfl (ix5 n c (⟨r.val / 2, by omega⟩ : Fin 64) (0 : Fin 1) s) ?_ ?_).trans (hbc q)
    · intro b' hb'
      match b', hb' with
      | ⟨0, _⟩, _ => rfl
      | ⟨1, _⟩, _ => rfl
      | ⟨2, _⟩, _ => rfl
      | ⟨3, _⟩, hb' => exact absurd rfl hb'
      | ⟨4, _⟩, _ => rfl
    · show 0 + 1 = r.val % 2
      omega

end Cert.Haar

end
-- ==== Proof.RefValue.lean ====
/-
  The reference computes the synthesis of its reshaped argument.

  The host program reshapes the argument so that the four subbands of a channel get an axis of their own, slices
  the four subbands out of it, forms the four signed sums and halves them, interleaves the columns of the two
  pictures of even rows and of the two pictures of odd rows, then the rows of the two results. Its last stage read
  at pixel (r, s) of channel c of image n is the pixel `Cert.Haar.quad` names, of the subbands at cell
  (r / 2, s / 2): `Cert.Haar.synth` for the 32 images, of the reshaped argument.
-/
import proofs.«137758_j188978561035_2_alg».proof.Proof.Gen.ReferenceIdeal.Read
import proofs.«137758_j188978561035_2_alg».proof.Proof.Synth
import proofs.«137758_j188978561035_2_alg».proof.Proof.InterleaveRef
import Idealize.ShloMosaic.Lib.Pipeline.Value
import Idealize.ShloMosaic.Lib.ValueIdx

noncomputable section

namespace Cert.ReferenceIdeal.Synthesis

open Cert.ReferenceIdeal Cert.ReferenceIdeal.Read Idealize.ShloMosaic Idealize.ShloMosaic.ValueIdx Cert.Haar

variable {F : FTy → Type} [FloatOps F]

/-- The four sliced subbands at a pixel are the reshaped argument at that subband. -/
theorem sub0 (x0 : (⟨S32x256x64x64, .f32⟩ : BufTy).Contents (Elt F)) (n : Fin 32) (c i j : Fin 64) :
    val_main_v2 (F := F) x0 (ix4 n c i j) = val_main_v0 (F := F) x0 (ix5 n c (0 : Fin 4) i j) := by
  unfold val_main_v2 val_main_v1
  exact subband4 _ 0 (by omega) _ _ n c i j

theorem sub1 (x0 : (⟨S32x256x64x64, .f32⟩ : BufTy).Contents (Elt F)) (n : Fin 32) (c i j : Fin 64) :
    val_main_v4 (F := F) x0 (ix4 n c i j) = val_main_v0 (F := F) x0 (ix5 n c (1 : Fin 4) i j) := by
  unfold val_main_v4 val_main_v3
  exact subband4 _ 1 (by omega) _ _ n c i j

theorem sub2 (x0 : (⟨S32x256x64x64, .f32⟩ : BufTy).Contents (Elt F)) (n : Fin 32) (c i j : Fin 64) :
    val_main_v6 (F := F) x0 (ix4 n c i j) = val_main_v0 (F := F) x0 (ix5 n c (2 : Fin 4) i j) := by
  unfold val_main_v6 val_main_v5
  exact subband4 _ 2 (by omega) _ _ n c i j

theorem sub3 (x0 : (⟨S32x256x64x64, .f32⟩ : BufTy).Contents (Elt F)) (n : Fin 32) (c i j : Fin 64) :
    val_main_v8 (F := F) x0 (ix4 n c i j) = val_main_v0 (F := F) x0 (ix5 n c (3 : Fin 4) i j) := by
  unfold val_main_v8 val_main_v7
  exact subband4 _ 3 (by omega) _ _ n c i j

/-- The four halved sums at a pixel, from the subbands at that pixel. -/
theorem sum00 (x0 : (⟨S32x256x64x64, .f32⟩ : BufTy).Contents (Elt F)) (p : S32x64x64x64.Idx) :
    val_main_v13 (F := F) x0 p = FloatOps.mulf (FloatOps.addf (FloatOps.addf (FloatOps.addf (val_main_v2 (F := F) x0 p) (val_main_v4 (F := F) x0 p)) (val_main_v6 (F := F) x0 p)) (val_main_v8 (F := F) x0 p)) (FloatOps.ofBits .f32 0x3F000000#32) := rfl

theorem sum01 (x0 : (⟨S32x256x64x64, .f32⟩ : BufTy).Contents (Elt F)) (p : S32x64x64x64.Idx) :
    val_main_v18 (F := F) x0 p = FloatOps.mulf (FloatOps.subf (FloatOps.subf (FloatOps.addf (val_main_v2 (F := F) x0 p) (val_main_v4 (F := F) x0 p)) (val_main_v6 (F := F) x0 p)) (val_main_v8 (F := F) x0 p)) (FloatOps.ofBits .f32 0x3F000000#32) := rfl

theorem sum10 (x0 : (⟨S32x256x64x64, .f32⟩ : BufTy).Contents (Elt F)) (p : S32x64x64x64.Idx) :
    val_main_v23 (F := F) x0 p = FloatOps.mulf (FloatOps.subf (FloatOps.addf (FloatOps.subf (val_main_v2 (F := F) x0 p) (val_main_v4 (F := F) x0 p)) (val_main_v6 (F := F) x0 p)) (val_main_v8 (F := F) x0 p)) (FloatOps.ofBits .f32 0x3F000000#32) := rfl

theorem sum11 (x0 : (⟨S32x256x64x64, .f32⟩ : BufTy).Contents (Elt F)) (p : S32x64x64x64.Idx) :
    val_main_v28 (F := F) x0 p = FloatOps.mulf (FloatOps.addf (FloatOps.subf (FloatOps.subf (val_main_v2 (F := F) x0 p) (val_main_v4 (F := F) x0 p)) (val_main_v6 (F := F) x0 p)) (val_main_v8 (F := F) x0 p)) (FloatOps.ofBits .f32 0x3F000000#32) := rfl

/-- The reference's last stage at pixel (r, s) of channel c of image n. -/
theorem ref_apply (x0 : (⟨S32x256x64x64, .f32⟩ : BufTy).Contents (Elt F)) (n : Fin 32) (c : Fin 64) (r s : Fin 128) :
    val_main_v40 (F := F) x0 (ix4 n c r s) = synth 32 (val_main_v0 (F := F) x0) (ix4 n c r s) := by
  have hr : r.val < 128 := r.isLt
  rw [synth_apply]
  unfold val_main_v40 val_main_v39 val_main_v37 val_main_v38 val_main_v32 val_main_v36 val_main_v31 val_main_v35
    val_main_v29 val_main_v30 val_main_v33 val_main_v34
  refine (rows4 _ _ _ _ _ n c r s).trans ?_
  rw [cols4, cols4, sum00, sum01, sum10, sum11, sub0, sub1, sub2, sub3]
  rfl

/-- The reference's last stage is the synthesis of the 32 images of its reshaped argument. -/
theorem ref_eq (x0 : (⟨S32x256x64x64, .f32⟩ : BufTy).Contents (Elt F)) :
    val_main_v40 (F := F) x0 = synth 32 (val_main_v0 (F := F) x0) := by
  funext j
  have e : j = ix4 (j 0) (j 1) (j 2) (j 3) := eq_ix4 j
  rw [e]
  exact ref_apply x0 (j 0) (j 1) (j 2) (j 3)

end Cert.ReferenceIdeal.Synthesis

end
-- ==== Proof.lean ====
/-
  The inverse 2x2 Haar wavelet step on 32 images of 64 channels: a kernel that handles one image per grid point
  against a whole-array host program.

  The argument packs, per image and channel, four 64x64 subbands (approximation, horizontal, vertical and diagonal
  detail) along the channel axis. Both programs first split that axis into (channel, subband). Pixel (r, s) of a
  128x128 result picture is then a signed sum of the four subbands at cell (r / 2, s / 2), the signs chosen by
  (r % 2, s % 2), times one half (Proof/Synth.lean). The kernel's body computes this for the one image it stages
  (Proof/KernelBlock.lean) and the 32 written blocks tile the result (Proof/KernelValue.lean); the host program
  computes it for all images at once (Proof/RefValue.lean). Both spell the placement of the four sums as two
  interleaves — columns, then rows — built from a new unit axis, a join and a reshape (Proof/Interleave.lean,
  Proof/InterleaveRef.lean). The two programs add and subtract in the same order and halve with the same float
  word, so the two results are one term of the argument at any float instance: no law of the extended reals is
  used and the finiteness of the input is never opened.

  The kernel's idealization rewrote nothing, so the preservation claim is `True`. The two kernels' frames are the
  generated ones; the reference's frame is its generated run with the result dropped.
-/
import proofs.«137758_j188978561035_2_alg».proof.Defs
import proofs.«137758_j188978561035_2_alg».proof.Proof.Gen.Kernel
import proofs.«137758_j188978561035_2_alg».proof.Proof.Gen.Kernel.Skeleton
import proofs.«137758_j188978561035_2_alg».proof.Proof.Gen.Kernel.Launch
import proofs.«137758_j188978561035_2_alg».proof.Proof.Gen.Kernel.Points
import proofs.«137758_j188978561035_2_alg».proof.Proof.Gen.Kernel.Frame
import proofs.«137758_j188978561035_2_alg».proof.Proof.Gen.KernelIdeal
import proofs.«137758_j188978561035_2_alg».proof.Proof.Gen.KernelIdeal.Skeleton
import proofs.«137758_j188978561035_2_alg».proof.Proof.Gen.KernelIdeal.Launch
import proofs.«137758_j188978561035_2_alg».proof.Proof.Gen.KernelIdeal.Points
import proofs.«137758_j188978561035_2_alg».proof.Proof.Gen.KernelIdeal.Frame
import proofs.«137758_j188978561035_2_alg».proof.Proof.Gen.ReferenceIdeal
import proofs.«137758_j188978561035_2_alg».proof.Proof.Gen.Pre_finite_inputs
import proofs.«137758_j188978561035_2_alg».proof.Proof.Gen.KernelIdeal.Value
import proofs.«137758_j188978561035_2_alg».proof.Proof.Gen.ReferenceIdeal.Run
import proofs.«137758_j188978561035_2_alg».proof.Proof.Gen.ReferenceIdeal.Read
import proofs.«137758_j188978561035_2_alg».proof.Proof.KernelValue
import proofs.«137758_j188978561035_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten for the ideal reading. -/
theorem preserves : Cert.preserves_Kernel_KernelIdeal := trivial

/-- From memories that agree on the argument both programs end with the result array at the synthesis of the
    reshaped argument: the kernel block by block, the host program in one piece. -/
theorem algebraic : Cert.algebraic_KernelIdeal_ReferenceIdeal := by
  intro m ρ m' ρ' _ hagree
  refine ⟨_, Cert.KernelIdeal.Synthesis.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.Synthesis.ref_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
